-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S64x128 : Shape := ⟨2, ![64, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S8192x128 .f32) (main_arg1 : FVec F S64x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S8192x128 : Shape := ⟨2, ![8192, 128]⟩
abbrev S64x128 : Shape := ⟨2, ![64, 128]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S256x1 : Shape := ⟨2, ![256, 1]⟩
abbrev S256x128 : Shape := ⟨2, ![256, 128]⟩
abbrev S256 : Shape := ⟨1, ![256]⟩
abbrev S256x8192 : Shape := ⟨2, ![256, 8192]⟩

abbrev nBuf : Space → Nat
  | .hbm => 15
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S64x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S1x8192, .f32⟩
  | .hbm, ⟨6, _⟩ => ⟨S_, .f32⟩
  | .hbm, ⟨7, _⟩ => ⟨S8192x128, .f32⟩
  | .hbm, ⟨8, _⟩ => ⟨S8192x128, .f32⟩
  | .hbm, ⟨9, _⟩ => ⟨S8192x128, .bf16⟩
  | .hbm, ⟨10, _⟩ => ⟨S8192x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S8192x128, .f32⟩
  | .local _ .vmem, ⟨1, _⟩ => ⟨S1x8192, .f32⟩
  | .local _ .vmem, ⟨2, _⟩ => ⟨S8192x128, .bf16⟩
  | .local _ .vmem, ⟨3, _⟩ => ⟨S256x1, .f32⟩
  | .local _ .vmem, ⟨4, _⟩ => ⟨S256x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S8192x128_S8192_d1 : S8192x128.ReducesTo [1] S8192
  h_S_ : 0 < S_.numel
  shapeCasts_S8192_S1x8192 : S8192.ShapeCasts S1x8192
  bcast_S_S8192x128 : S_.BroadcastsInDim S8192x128 (![] : Fin 0 → Fin S8192x128.rank)
  bitsLt_bf16_f32 : FTy.bits .bf16 < FTy.bits .f32
  h_S256x128 : 0 < S256x128.numel
  reduces_S256x128_S256 : S256x128.Reduces [1] S256
  shapeCasts_S256_S256x1 : S256.ShapeCasts S256x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S256x1_S256x8192 : S256x1.Broadcasts S256x8192
  broadcasts_S1x8192_S256x8192 : S1x8192.Broadcasts S256x8192
  reduces_S256x8192_S256 : S256x8192.Reduces [1] S256
  inb_S256x1_S256x1_0_0 : ∀ a, (![0, 0] : Fin 2 → Nat) a + S256x1.size a ≤ S256x1.size a
  h_S256x1 : 0 < S256x1.numel
  reducesTo_S8192x1_S_d0_1 : S8192x1.ReducesTo [0, 1] S_
  dot_S256x128_S8192x128_S256x8192_1_1_0_0_n_n_wf : DotDims.WF S256x128 S8192x128 S256x8192 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x128.size a ≤ S8192x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .bf16 = 32 ∨ (Rect.block (s := S8192x128) S8192x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)

variable [Facts₀]

def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x128 : Shape := ⟨2, ![8192, 128]⟩
abbrev S64x128 : Shape := ⟨2, ![64, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S64x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KernelPiece.lean ====
/-
  What the kernel body leaves in its output block, as a value.

  The body makes one store, covering the whole [256, 1] block, of a payload computed from three loads: the 256 rows of
  `x` that the grid point owns (read from the resident copy of `x` through a rectangle whose row offset is
  256 times the point's coordinate), the whole resident array of squared norms, and the whole resident array
  `x * (-2)`. So the block the body leaves is that payload of those three loaded values, whatever the float instance.
-/
import proofs.«100847_j15917148799715_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

/-- The zero offsets, spelt as the printed rectangles spell them. -/
theorem zero_offsets : (![0, 0] : Fin 2 → Nat) = fun _ => 0 := funext fun a => by fin_cases a <;> rfl

/-- The rows of the resident `x` that grid point `i` loads: 256 rows from row `256 * i`, all 128 columns. -/
abbrev rowsAt (i : grid0.Coords) (x0 : Vec F S8192x128 .f32) : Vec F S256x128 .f32 :=
  View.ld x0 (Rect.unit (s := S8192x128) (k0_off1 i) S256x128.size (k0_off1_inb i))

/-- The block the body leaves in the output's staging buffer is its one store's payload, of the point's rows of `x`,
    the array `x * (-2)` and the row of squared norms. -/
theorem block_eq_payload (c : Dev nD) (i : grid0.Coords) (a1 : Memref sig .tc .vmem S8192x128 .f32) (h1 : a1.IsWhole)
    (a2 : Memref sig .tc .vmem S1x8192 .f32) (h2 : a2.IsWhole) (a3 : Memref sig .tc .vmem S8192x128 .bf16) (h3 : a3.IsWhole)
    (a4 : Memref sig .tc .vmem S256x1 .f32) (h4 : a4.IsWhole)
    (x0 : Vec F S8192x128 .f32) (x1 : Vec F S1x8192 .f32) (x2 : Vec F S8192x128 .bf16) :
    out0_A_3 c i a1 h1 a2 h2 a3 h3 a4 h4 x0 x1 x2 = k0_pay1 (rowsAt i x0) x2 x1 := by
  unfold out0_A_3
  rw [View.read_writes_eq_canon _ _ _ (cover0_A_3 c i a1 h1 a2 h2 a3 h3 a4 h4 x0 x1 x2)]
  unfold kernelRun0_A
  dsimp only
  rw [View.canon_unit_zero zero_offsets]
  simp only [View.readAt_eq_ld, h1.read_unread, h2.read_unread, h3.read_unread,
    View.ld_unit_zero (S := S8192x128) zero_offsets, View.ld_unit_zero (S := S1x8192) zero_offsets]

end Cert.KernelIdeal.Body

end
-- ==== Proof.LibColumnLayout.lean ====
/-
  Column forms of two layout operations, read at an index built from coordinates.

  A sum over the last axis taken with the reduced axis kept (a column of row sums) meets two layout operations the
  library reads only in their row forms: the cast of a vector `[a]` to a column `[a, 1]`, and the broadcast of a column
  `[a, 1]` across `b` columns to `[a, b]`. Both read, at `(i, ·)`, the operand's entry of row `i`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- A vector `[a]` cast to a column `[a, 1]` reads, at `(i, u)`, the operand at `i`, whatever the unit coordinate `u`:
    both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.KernelPayload.lean ====
/-
  The kernel body's stored value, read at an index, at the ideal instance.

  From the 256 loaded rows `a` of `x`, the resident right operand `b` (an [8192, 128] array) and the resident row `n`
  of squared norms, the body stores the column whose entry at row `r` is
      ∑ⱼ exp (0 - max ((∑ₖ a r k · a r k + n j) + ∑ₖ a r k · b j k) 0),
  the sum running over all 8192 columns `j` and the inner sums over the 128 features `k`.
-/
import proofs.«100847_j15917148799715_2_alg».proof.Proof.Gen.KernelIdeal.Skeleton
import proofs.«100847_j15917148799715_2_alg».proof.Proof.LibColumnLayout
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payload

open Cert.KernelIdeal Cert.KernelIdeal.Gen

/-! ## The three pieces of one distance entry, each read at row `r`, column `j` -/

/-- The point's own squared norms, summed along the feature axis, kept as a column and spread over the columns:
    at `(r, j)` the sum of squares of row `r` of the loaded rows. -/
theorem own_norm_apply (v3 : FVec Ideal S256x128 .f32) (hφ : FKind.Formats .f32)
    (hacc : (0x00000000#32 : BitVec 32) = 0x00000000#32) (r : Fin 256) (j : Fin 8192) :
    broadcastTo S256x8192
        (shapeCast S256x1 (multiReduction .add [1] S256 (mulf v3 v3) 0x00000000#32 reduces_S256x128_S256 hφ hacc)
          shapeCasts_S256_S256x1)
        broadcasts_S256x1_S256x8192 (ix2 r j)
      = ∑ k : Fin 128, v3 (ix2 r k) * v3 (ix2 r k) := by
  refine (ColumnLayout.broadcastTo_a1_ab_apply _ broadcasts_S256x1_S256x8192 r j).trans ?_
  refine (ColumnLayout.shapeCast_a_a1_apply _ shapeCasts_S256_S256x1 r (0 : Fin 1)).trans ?_
  refine (Ideal.multiReduction_add_single _ _ reduces_S256x128_S256 hφ hacc (ix1 r)).trans ?_
  refine Finset.sum_congr rfl fun k _ => ?_
  have hl : reduces_S256x128_S256.lift (ix1 r) k = ix2 r k :=
    funext fun a => Fin.ext (by match a with | ⟨0, _⟩ => rfl | ⟨1, _⟩ => rfl)
  rw [hl]
  rfl

/-- The resident row of squared norms spread over the rows: at `(r, j)` its entry `j`. -/
theorem other_norm_apply (v11 : FVec Ideal S1x8192 .f32) (r : Fin 256) (j : Fin 8192) :
    broadcastTo S256x8192 (shapeCast S1x8192 v11 shapeCasts_S1x8192_S1x8192) broadcasts_S1x8192_S256x8192 (ix2 r j)
      = v11 (ix2 (0 : Fin 1) j) := by
  refine (broadcastTo_1b_ab_apply _ broadcasts_S1x8192_S256x8192 r j).trans ?_
  rw [shapeCast_self]

/-- The matrix product into a zero accumulator, contracting the feature axis of both operands: at `(r, j)` the sum over
    the features of row `r` of the left operand times row `j` of the right (rounding to the narrow format is the
    identity on extended reals). -/
theorem cross_apply (v3 : FVec Ideal S256x128 .f32) (v8 : FVec Ideal S8192x128 .bf16) (r : Fin 256) (j : Fin 8192) :
    matmul dot_S256x128_S8192x128_S256x8192_1_1_0_0_n_n none (truncf .bf16 v3 bitsLt_bf16_f32)
        (shapeCast S8192x128 v8 shapeCasts_S8192x128_S8192x128) (constant S256x8192 .f32 0x00000000#32) (ix2 r j)
      = ∑ k : Fin 128, v3 (ix2 r k) * v8 (ix2 j k) := by
  rw [shapeCast_self]
  simp only [matmul]
  rw [Ideal.matmul_constant_zero_apply,
    ← Equiv.sum_comp (contrEquiv1 dot_S256x128_S8192x128_S256x8192_1_1_0_0_n_n 128 rfl rfl).symm]
  refine Finset.sum_congr rfl fun k _ => ?_
  have hk := contrEquiv1_symm_val dot_S256x128_S8192x128_S256x8192_1_1_0_0_n_n 128 rfl rfl k
  have l0 : ∀ q, (dot_S256x128_S8192x128_S256x8192_1_1_0_0_n_n.lhsIdx (ix2 r j) q 0).val = r.val := fun q => by
    unfold DotDims.lhsIdx
    rw [dif_neg (show ¬(0 : Fin S256x128.rank) ∈ dot_S256x128_S8192x128_S256x8192_1_1_0_0_n_n.lhsBatch by decide),
      dif_pos (show (0 : Fin S256x128.rank) ∈ dot_S256x128_S8192x128_S256x8192_1_1_0_0_n_n.lhsNonContracting by decide)]
    rfl
  have r0 : ∀ q, (dot_S256x128_S8192x128_S256x8192_1_1_0_0_n_n.rhsIdx (ix2 r j) q 0).val = j.val := fun q => by
    unfold DotDims.rhsIdx
    rw [dif_neg (show ¬(0 : Fin S8192x128.rank) ∈ dot_S256x128_S8192x128_S256x8192_1_1_0_0_n_n.rhsBatch by decide),
      dif_pos (show (0 : Fin S8192x128.rank) ∈ dot_S256x128_S8192x128_S256x8192_1_1_0_0_n_n.rhsNonContracting by decide)]
    rfl
  have el : dot_S256x128_S8192x128_S256x8192_1_1_0_0_n_n.lhsIdx (ix2 r j)
      ((contrEquiv1 dot_S256x128_S8192x128_S256x8192_1_1_0_0_n_n 128 rfl rfl).symm k) = ix2 r k :=
    funext fun a => Fin.ext (by
      match a with
      | ⟨0, _⟩ => exact l0 _
      | ⟨1, _⟩ => exact (dot_S256x128_S8192x128_S256x8192_1_1_0_0_n_n.lhsIdx_val_of_single rfl _ _).trans hk)
  have er : dot_S256x128_S8192x128_S256x8192_1_1_0_0_n_n.rhsIdx (ix2 r j)
      ((contrEquiv1 dot_S256x128_S8192x128_S256x8192_1_1_0_0_n_n 128 rfl rfl).symm k) = ix2 j k :=
    funext fun a => Fin.ext (by
      match a with
      | ⟨0, _⟩ => exact r0 _
      | ⟨1, _⟩ => exact (dot_S256x128_S8192x128_S256x8192_1_1_0_0_n_n.rhsIdx_val_of_single rfl _ _).trans hk)
  rw [el, er]
  rfl

/-! ## The payload -/

/-- One entry of the kernel's matrix: `exp (0 - max d 0)` of the distance as the kernel arranges it,
    `(‖row r‖² + norms j) + ∑ₖ row r k · right j k`, where `right` is the resident right operand. -/
def entry (v3 : FVec Ideal S256x128 .f32) (v8 : FVec Ideal S8192x128 .bf16) (v11 : FVec Ideal S1x8192 .f32)
    (r : Fin 256) (j : Fin 8192) : EReal :=
  Ideal.exp (0 - max (((∑ k : Fin 128, v3 (ix2 r k) * v3 (ix2 r k)) + v11 (ix2 (0 : Fin 1) j))
    + ∑ k : Fin 128, v3 (ix2 r k) * v8 (ix2 j k)) 0)

/-- The body's stored value at row `r` of the block is the sum over all columns of that row's entries. -/
theorem payload_apply (v3 : FVec Ideal S256x128 .f32) (v8 : FVec Ideal S8192x128 .bf16) (v11 : FVec Ideal S1x8192 .f32)
    (r : Fin 256) (u : Fin 1) :
    k0_pay1 (F := Ideal) v3 v8 v11 (ix2 r u) = ∑ j : Fin 8192, entry v3 v8 v11 r j := by
  unfold k0_pay1
  dsimp only
  refine (ColumnLayout.shapeCast_a_a1_apply _ shapeCasts_S256_S256x1 r u).trans ?_
  refine (Ideal.multiReduction_add_single _ _ reduces_S256x8192_S256 _ _ (ix1 r)).trans ?_
  refine Finset.sum_congr rfl fun (j : Fin 8192) _ => ?_
  have hl : reduces_S256x8192_S256.lift (ix1 r) j = ix2 r j :=
    funext fun a => Fin.ext (by match a with | ⟨0, _⟩ => rfl | ⟨1, _⟩ => rfl)
  rw [hl]
  show Ideal.exp (Ideal.ofBits .f32 0x00000000#32
      - max ((broadcastTo S256x8192 _ broadcasts_S256x1_S256x8192 (ix2 r j)
              + broadcastTo S256x8192 _ broadcasts_S1x8192_S256x8192 (ix2 r j))
            + matmul _ none _ _ _ (ix2 r j)) (Ideal.ofBits .f32 0x00000000#32)) = _
  rw [own_norm_apply, other_norm_apply, cross_apply, Ideal.ofBits_zero_f32]
  rfl

end Cert.KernelIdeal.Payload

end
-- ==== Proof.GramLaw.lean ====
/-
  The algebra that joins the two arrangements of the pairwise squared distance.

  For real rows `a`, `b` (entries `a k`, `b k`) and any extended reals `p`, `q` (the two squared norms), the kernel
  forms `(p + q) + ∑ k, a k * (b k * (-2))` — the factor `-2` folded into the right operand before the product —
  while the reference forms `(p + q) - 2 * ∑ k, a k * b k`. Over the reals the two sums differ by a sign, by
  distributivity; read in the extended reals they still do because every term is the image of a real number, which
  is what finiteness of the input gives. (At infinite entries the two arrangements differ: a sum holding both
  infinities is `⊥` on either side of the sign change.)
-/
import Mathlib.Data.EReal.Basic
import Mathlib.Data.EReal.Operations
import Mathlib.Algebra.BigOperators.Ring.Finset
import Mathlib.Tactic.Ring

namespace Cert.GramLaw

open scoped BigOperators

/-- A finite sum of real numbers, read in the extended reals, is the image of the real sum. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- Over the reals: folding `-2` into the right factor of every product negates twice the inner product. -/
theorem real_fold {ι : Type*} (s : Finset ι) (a b : ι → ℝ) :
    ∑ k ∈ s, a k * (b k * (-2)) = -(2 * ∑ k ∈ s, a k * b k) := by
  rw [Finset.mul_sum, ← Finset.sum_neg_distrib]
  exact Finset.sum_congr rfl fun k _ => by ring

/-- The two arrangements of the distance agree on the extended reals when the rows are real. -/
theorem fold_eq_sub {ι : Type*} [Fintype ι] (a b : ι → ℝ) (s : EReal) :
    s + ∑ k, ((a k : ℝ) : EReal) * (((b k : ℝ) : EReal) * ((-2 : ℝ) : EReal))
      = s - ((2 : ℝ) : EReal) * ∑ k, ((a k : ℝ) : EReal) * ((b k : ℝ) : EReal) := by
  have hl : ∑ k, ((a k : ℝ) : EReal) * (((b k : ℝ) : EReal) * ((-2 : ℝ) : EReal))
      = ((∑ k, a k * (b k * (-2)) : ℝ) : EReal) := by
    rw [← coe_sum]
    exact Finset.sum_congr rfl fun k _ => by rw [← EReal.coe_mul, ← EReal.coe_mul]
  have hr : ∑ k, ((a k : ℝ) : EReal) * ((b k : ℝ) : EReal) = ((∑ k, a k * b k : ℝ) : EReal) := by
    rw [← coe_sum]
    exact Finset.sum_congr rfl fun k _ => by rw [← EReal.coe_mul]
  rw [hl, hr, real_fold, ← EReal.coe_mul, sub_eq_add_neg, ← EReal.coe_neg]

end Cert.GramLaw
-- ==== Proof.Consts.lean ====
/-
  The two float literals whose exact values the algebra uses: the kernel's `-2.0` and the reference's `2.0`.
  Each 32-bit pattern denotes, on the extended reals, the real number it spells. (The zero pattern's value is the
  library's `Ideal.ofBits_zero_f32`; the divisor `2²⁶` is the same pattern on both sides and is never evaluated.)
-/
import Idealize.ShloMosaic.PureOps.Ideal

namespace Cert.Consts

open Idealize.ShloMosaic

/-- The pattern `0xC0000000` is `-2`. -/
theorem ofBits_neg_two : Ideal.ofBits .f32 0xC0000000#32 = ((-2 : ℝ) : EReal) := by
  simp [Ideal.ofBits, Ideal.ieee, -EReal.coe_mul]
  norm_num

/-- The pattern `0x40000000` is `2`. -/
theorem ofBits_two : Ideal.ofBits .f32 0x40000000#32 = ((2 : ℝ) : EReal) := by
  simp [Ideal.ofBits, Ideal.ieee, -EReal.coe_mul]
  norm_num

end Cert.Consts
-- ==== Proof.Spec.lean ====
/-
  The function both programs compute, and the one step where their arrangements differ.

  For `x : [8192, 128]` put `‖i‖² = ∑ₖ x i k · x i k`. Both programs return the mean over all pairs `(i, j)` of
  `exp (-(max (dᵢⱼ) 0))`, the sum of all `8192²` entries divided by `2²⁶`, where
    the reference forms  `dᵢⱼ = (‖i‖² + ‖j‖²) - 2 · ∑ₖ x i k · x j k`,
    the kernel forms     `dᵢⱼ = (‖i‖² + ‖j‖²) + ∑ₖ x i k · (x j k · (-2))`, negates by `0 - ·`, and sums row by row.
  The two distances agree when every entry of `x` is a real number (`GramLaw.fold_eq_sub`); `0 - m = -m` on the
  extended reals; and the order of a finite sum is free.
-/
import Idealize.ShloMosaic.PureOps.Ideal
import Idealize.ShloMosaic.Lib.ValueIdx
import proofs.«100847_j15917148799715_2_alg».proof.Proof.GramLaw
import proofs.«100847_j15917148799715_2_alg».proof.Proof.Consts

noncomputable section

namespace Cert.PairDist

open Idealize.ShloMosaic Idealize.ShloMosaic.ValueIdx

/-- An `[8192, 128]` array of extended reals. -/
abbrev Arr : Type := (⟨2, ![8192, 128]⟩ : Shape).Idx → EReal

/-- Every entry is a real number. -/
def AllReal (x : Arr) : Prop := ∀ i, ∃ r : ℝ, x i = (r : EReal)

/-- The squared norm of row `i`. -/
def sqNorm (x : Arr) (i : Fin 8192) : EReal := ∑ k : Fin 128, x (ix2 i k) * x (ix2 i k)

/-- The squared distance of rows `i` and `j` as the kernel arranges it: `-2` folded into the right factor. -/
def kernelDist (x : Arr) (i j : Fin 8192) : EReal :=
  (sqNorm x i + sqNorm x j) + ∑ k : Fin 128, x (ix2 i k) * (x (ix2 j k) * Ideal.ofBits .f32 0xC0000000#32)

/-- The same as the reference arranges it: twice the inner product subtracted. -/
def refDist (x : Arr) (i j : Fin 8192) : EReal :=
  (sqNorm x i + sqNorm x j) - Ideal.ofBits .f32 0x40000000#32 * ∑ k : Fin 128, x (ix2 i k) * x (ix2 j k)

/-- One entry of the kernel's matrix. -/
def kernelEntry (x : Arr) (i j : Fin 8192) : EReal := Ideal.exp (0 - max (kernelDist x i j) 0)

/-- One entry of the reference's matrix. -/
def refEntry (x : Arr) (i j : Fin 8192) : EReal := Ideal.exp (-(max (refDist x i j) 0))

/-- On real-valued input the two arrangements of the distance agree. -/
theorem kernelDist_eq_refDist (x : Arr) (hx : AllReal x) (i j : Fin 8192) : kernelDist x i j = refDist x i j := by
  unfold kernelDist refDist
  choose a ha using fun k : Fin 128 => hx (ix2 i k)
  choose b hb using fun k : Fin 128 => hx (ix2 j k)
  have hl : ∑ k : Fin 128, x (ix2 i k) * (x (ix2 j k) * Ideal.ofBits .f32 0xC0000000#32)
      = ∑ k : Fin 128, ((a k : ℝ) : EReal) * (((b k : ℝ) : EReal) * ((-2 : ℝ) : EReal)) :=
    Finset.sum_congr rfl fun k _ => by rw [ha k, hb k, Cert.Consts.ofBits_neg_two]
  have hr : ∑ k : Fin 128, x (ix2 i k) * x (ix2 j k) = ∑ k : Fin 128, ((a k : ℝ) : EReal) * ((b k : ℝ) : EReal) :=
    Finset.sum_congr rfl fun k _ => by rw [ha k, hb k]
  rw [hl, hr, Cert.Consts.ofBits_two]
  exact Cert.GramLaw.fold_eq_sub a b _

/-- So the entries agree: the same function of equal distances, and `0 - m = -m`. -/
theorem kernelEntry_eq_refEntry (x : Arr) (hx : AllReal x) (i j : Fin 8192) : kernelEntry x i j = refEntry x i j := by
  unfold kernelEntry refEntry
  rw [kernelDist_eq_refDist x hx, zero_sub]

/-- The kernel's output array: row `i` holds the sum of that row's entries. -/
def rowSums (x : Arr) : (⟨2, ![8192, 1]⟩ : Shape).Idx → EReal :=
  fun i => ∑ j : Fin 8192, kernelEntry x ⟨(i 0).val, (i 0).isLt⟩ j

/-- The common result: all entries summed, divided by the literal `2²⁶` both programs divide by. -/
def mean (x : Arr) : (⟨0, ![]⟩ : Shape).Idx → EReal :=
  fun _ => Ideal.div (∑ a : Fin 8192, ∑ b : Fin 8192, refEntry x a b) (Ideal.ofBits .f32 0x4C800000#32)

end Cert.PairDist

end
-- ==== Proof.KernelHost.lean ====
/-
  What the host lines before the kernel leave in the two arrays the kernel keeps resident besides `x`.

  The row of squared norms is the sum of `x · x` over the feature axis, from a zero start, recast as one row:
  its entry `j` is `∑ₖ x j k · x j k`. The right operand is `x` times the constant `-2`, then rounded to a narrower
  format, which on extended reals changes nothing: its entry `(j, k)` is `x j k · (-2)`.
-/
import proofs.«100847_j15917148799715_2_alg».proof.Proof.Gen.KernelIdeal.Frame
import proofs.«100847_j15917148799715_2_alg».proof.Proof.Spec
import Idealize.ShloMosaic.Lib.StableHlo.Run
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.HostPrefix

open Cert.KernelIdeal Cert.KernelIdeal.Gen

variable (m : (ℓ : Loc nD τ sig) → Buf (Elt Ideal) ℓ)

/-- The argument `x` on core `c`, as launched. -/
abbrev xin (c : Dev nD) : Cert.PairDist.Arr := m ((c : Thread nD τ).loc main_arg0)

/-- The norms row as the region finds it: the host's sum over the feature axis, recast to one row. -/
theorem norms_eq (c : Dev nD) :
    (V m c main_v2 : S1x8192.Idx → EReal)
      = shapeCast S1x8192 (Host.reduceAdd (F := Ideal) (mulf (xin m c) (xin m c)) (constant (F := Ideal) S_ .f32 0x00000000#32)
          reducesTo_S8192x128_S8192_d1 h_S_) shapeCasts_S8192_S1x8192 := by
  show StableHlo.after hostOps0 (fun b => m (c, b)) (Proc.devRef .tc main_v2) = _
  after_results
  rfl

/-- Its entry `j` is the squared norm of row `j`. -/
theorem norms_apply (c : Dev nD) (j : Fin 8192) :
    (V m c main_v2 : S1x8192.Idx → EReal) (ix2 (0 : Fin 1) j) = Cert.PairDist.sqNorm (xin m c) j := by
  refine (congrFun (norms_eq m c) (ix2 (0 : Fin 1) j)).trans ?_
  refine (shapeCast_a_1a_apply _ shapeCasts_S8192_S1x8192 (0 : Fin 1) j).trans ?_
  simp only [Host.reduceAdd, Ideal.hostReduceAdd_def]
  rw [Ideal.hostReduceAdd_single reducesTo_S8192x128_S8192_d1 (by decide)]
  show Ideal.ofBits .f32 0x00000000#32 + _ = _
  rw [Ideal.ofBits_zero_f32, zero_add]
  unfold Cert.PairDist.sqNorm
  refine Finset.sum_congr rfl fun k _ => ?_
  show xin m c _ * xin m c _ = _
  have hl : ∀ (h : S8192x128.Reduces [1] S8192), h.lift (ix1 j) k = ix2 j k := fun h =>
    funext fun a => Fin.ext (by match a with | ⟨0, _⟩ => rfl | ⟨1, _⟩ => rfl)
  rw [hl]
  rfl

/-- The right operand as the region finds it: `x` times the splat of `-2`, rounded. -/
theorem right_eq (c : Dev nD) :
    (V m c main_v5 : S8192x128.Idx → EReal)
      = truncf .bf16 (mulf (xin m c) (broadcastInDim S8192x128 ![] bcast_S_S8192x128 (constant (F := Ideal) S_ .f32 0xC0000000#32)))
          bitsLt_bf16_f32 := by
  show StableHlo.after hostOps0 (fun b => m (c, b)) (Proc.devRef .tc main_v5) = _
  after_results

/-- Its entry `(j, k)` is `x j k · (-2)`. -/
theorem right_apply (c : Dev nD) (j : Fin 8192) (k : Fin 128) :
    (V m c main_v5 : S8192x128.Idx → EReal) (ix2 j k) = xin m c (ix2 j k) * Ideal.ofBits .f32 0xC0000000#32 :=
  (congrFun (right_eq m c) (ix2 j k)).trans rfl

end Cert.KernelIdeal.HostPrefix

end
-- ==== Proof.KernelArray.lean ====
/-
  The kernel's output array after the run: row `g` holds the sum over all columns of row `g`'s entries.

  The grid has 32 points; point `t` owns rows `256·t … 256·t + 255`. Its three inputs are whole arrays (the same block
  at every point): `x` itself, the row of squared norms, and `x · (-2)`. The body loads its own 256 rows of `x` at row
  offset `256·t`, so what it stores at block row `r` is the row sum for array row `256·t + r`, which is where the
  output block of point `t` puts it. The 32 blocks tile the [8192, 1] output, so the array ends as that one function.
-/
import proofs.«100847_j15917148799715_2_alg».proof.Proof.KernelPiece
import proofs.«100847_j15917148799715_2_alg».proof.Proof.KernelPayload
import proofs.«100847_j15917148799715_2_alg».proof.Proof.KernelHost
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.HostPrefix

variable (m : (ℓ : Loc nD τ sig) → Buf (Elt Ideal) ℓ)

/-- The printed index maps over the grid: the three inputs sit at block (0, 0) at every point, the output at block
    (t, 0), and the point's one coordinate is the point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ (grid0.coords t 0).val = t.val :=
  (by decide +kernel : ∀ t : Fin grid0.N, _)

/-! ## The point's rows, and the three resident blocks, read at an index -/

/-- The rows a point loads: block row `r` is array row `256·i + r`. -/
theorem rowsAt_apply (i : grid0.Coords) (x0 : FVec Ideal S8192x128 .f32) (r : Fin 256) (k : Fin 128) (g : Fin 8192)
    (hg : g.val = 256 * (i 0).val + r.val) : Body.rowsAt (F := Ideal) i x0 (ix2 r k) = x0 (ix2 g k) := by
  show x0 ((Rect.unit (s := S8192x128) (k0_off1 i) S256x128.size (k0_off1_inb i)).emb (ix2 r k)) = _
  refine congrArg x0 (funext fun a => Fin.ext ?_)
  match a with
  | ⟨0, _⟩ =>
    show k0_off1 i 0 + 1 * r.val = g.val
    rw [k0_off1_eq]
    show 256 * (i 0).val + 1 * r.val = g.val
    omega
  | ⟨1, _⟩ =>
    show k0_off1 i 1 + 1 * k.val = k.val
    rw [k0_off1_eq]
    show 0 + 1 * k.val = k.val
    omega

/-- The resident copy of `x` is `x`. -/
theorem x_block (c : Dev nD) (t : Fin cfg0.N) (a : Fin 8192) (k : Fin 128) :
    (iblk m c 0 t : S8192x128.Idx → EReal) (ix2 a k) = xin m c (ix2 a k) := by
  obtain ⟨e0, e1, -⟩ := idx_facts t
  show V m c main_arg0 (((cfg0.win 0).blk t).view.emb (ix2 a k)) = _
  rw [V_main_arg0 m c]
  refine congrArg (m ((c : Thread nD τ).loc main_arg0)) (funext fun d => Fin.ext ?_)
  match d with
  | ⟨0, _⟩ => show win0_0.index t (0 : Fin 2) * 8192 + 1 * a.val = a.val; rw [e0]; omega
  | ⟨1, _⟩ => show win0_0.index t (1 : Fin 2) * 128 + 1 * k.val = k.val; rw [e1]; omega

/-- The resident row of norms holds the squared norm of row `j` at column `j`. -/
theorem norms_block (c : Dev nD) (t : Fin cfg0.N) (j : Fin 8192) :
    (iblk m c 1 t : S1x8192.Idx → EReal) (ix2 (0 : Fin 1) j) = Cert.PairDist.sqNorm (xin m c) j := by
  obtain ⟨-, -, e0, e1, -⟩ := idx_facts t
  show V m c main_v2 (((cfg0.win 1).blk t).view.emb (ix2 (0 : Fin 1) j)) = _
  have he : ((cfg0.win 1).blk t).view.emb (ix2 (0 : Fin 1) j) = ix2 (0 : Fin 1) j := funext fun d => Fin.ext (by
    match d with
    | ⟨0, _⟩ => show win0_1.index t (0 : Fin 2) * 1 + 1 * 0 = 0; rw [e0]
    | ⟨1, _⟩ => show win0_1.index t (1 : Fin 2) * 8192 + 1 * j.val = j.val; rw [e1]; omega)
  rw [he]
  exact norms_apply m c j

/-- The resident right operand holds `x j k · (-2)`. -/
theorem right_block (c : Dev nD) (t : Fin cfg0.N) (j : Fin 8192) (k : Fin 128) :
    (iblk m c 2 t : S8192x128.Idx → EReal) (ix2 j k) = xin m c (ix2 j k) * Ideal.ofBits .f32 0xC0000000#32 := by
  obtain ⟨-, -, -, -, e0, e1, -⟩ := idx_facts t
  show V m c main_v5 (((cfg0.win 2).blk t).view.emb (ix2 j k)) = _
  have he : ((cfg0.win 2).blk t).view.emb (ix2 j k) = ix2 j k := funext fun d => Fin.ext (by
    match d with
    | ⟨0, _⟩ => show win0_2.index t (0 : Fin 2) * 8192 + 1 * j.val = j.val; rw [e0]; omega
    | ⟨1, _⟩ => show win0_2.index t (1 : Fin 2) * 128 + 1 * k.val = k.val; rw [e1]; omega)
  rw [he]
  exact right_apply m c j k

/-! ## What a point stores, over variables -/

/-- For loaded values that are `x`, its norms and `x · (-2)`, the body's stored value at a block index `y` of point
    `i` is the row sum of the array row `256·i + y₀`. -/
theorem point_value (x : Cert.PairDist.Arr) (i : grid0.Coords) (x0 : FVec Ideal S8192x128 .f32) (x1 : FVec Ideal S1x8192 .f32)
    (x2 : FVec Ideal S8192x128 .bf16)
    (h0 : ∀ (a : Fin 8192) (k : Fin 128), x0 (ix2 a k) = x (ix2 a k))
    (h1 : ∀ j : Fin 8192, x1 (ix2 (0 : Fin 1) j) = Cert.PairDist.sqNorm x j)
    (h2 : ∀ (j : Fin 8192) (k : Fin 128), x2 (ix2 j k) = x (ix2 j k) * Ideal.ofBits .f32 0xC0000000#32)
    (y : S256x1.Idx) (g : S8192x1.Idx) (hg : (g 0).val = 256 * (i 0).val + (y 0).val) :
    k0_pay1 (F := Ideal) (Body.rowsAt (F := Ideal) i x0) x2 x1 y = Cert.PairDist.rowSums x g := by
  obtain ⟨r, u, rfl⟩ : ∃ (r : Fin 256) (u : Fin 1), y = ix2 r u := ⟨y 0, y 1, eq_ix2 y⟩
  rw [Payload.payload_apply]
  unfold Cert.PairDist.rowSums
  refine Finset.sum_congr rfl fun j _ => ?_
  unfold Payload.entry Cert.PairDist.kernelEntry Cert.PairDist.kernelDist
  have hrow : ∀ k : Fin 128, Body.rowsAt (F := Ideal) i x0 (ix2 r k) = x (ix2 ⟨(g 0).val, (g 0).isLt⟩ k) := fun k =>
    (rowsAt_apply i x0 r k ⟨(g 0).val, (g 0).isLt⟩ hg).trans (h0 _ k)
  simp only [hrow, h1, h2]
  rfl

/-! ## Blocks to the array -/

/-- What point `t` writes back is block `t` of the row sums. -/
theorem flushed_eq (c : Dev nD) (t : Fin cfg0.N) :
    (dats m 0 c).flushed 3 t = ((cfg0.win 3).blk t).view.read (Elt Ideal) (Cert.PairDist.rowSums (xin m c)) := by
  show (cfg0.win 3).cut (grid0.coords t) ((dats m 0 c).after 3 t) = _
  rw [after0_3]
  unfold outsAt0
  refine (congrArg ((cfg0.win 3).cut (grid0.coords t))
    (Body.block_eq_payload c (grid0.coords t) (ms0_0 t) (hs0_0 t) (ms0_1 t) (hs0_1 t) (ms0_2 t) (hs0_2 t) (ms0_3 t) (hs0_3 t)
      (iblk m c 0 t) (iblk m c 1 t) (iblk m c 2 t))).trans ?_
  obtain ⟨-, -, -, -, -, -, e0, e1, ec⟩ := idx_facts t
  funext y
  show k0_pay1 (F := Ideal) (Body.rowsAt (F := Ideal) (grid0.coords t) (iblk m c 0 t)) (iblk m c 2 t) (iblk m c 1 t) y
    = Cert.PairDist.rowSums (xin m c) (((cfg0.win 3).blk t).view.emb y)
  exact point_value (xin m c) (grid0.coords t) (iblk m c 0 t) (iblk m c 1 t) (iblk m c 2 t)
    (x_block m c t) (norms_block m c t) (right_block m c t) y (((cfg0.win 3).blk t).view.emb y) (by
      show win0_3.index t (0 : Fin 2) * 256 + 1 * (y 0).val = 256 * (grid0.coords t 0).val + (y 0).val
      rw [e0, ec]; omega)

/-- An index of the output array is in point `t`'s block iff each coordinate is in the block's range on its axis. -/
theorem mem_blk (t : Fin cfg0.N) (i : S8192x1.Idx) :
    i ∈ ((cfg0.win 3).blk t).view.set ↔ ∀ a : Fin 2, win0_3.index t a * S256x1.size a ≤ (i a).val
      ∧ (i a).val < win0_3.index t a * S256x1.size a + S256x1.size a := by
  show i ∈ ((View.whole main_v6).slice (win0_3.rect t)).set ↔ _
  rw [View.set_slice_whole, Rect.mem_set_unit]
  exact Iff.rfl

/-- Every row of the output is in the block of the point `row / 256`. -/
theorem cover (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 32 := N_0
  have ht : (i 0).val / 256 < cfg0.N := by rw [hN]; omega
  obtain ⟨-, -, -, -, -, -, e0, e1, -⟩ := idx_facts ⟨(i 0).val / 256, ht⟩
  refine ⟨⟨(i 0).val / 256, ht⟩, flush0_3 _, ?_⟩
  rw [mem_blk]
  intro a
  match a with
  | ⟨0, _⟩ =>
    show win0_3.index ⟨(i 0).val / 256, ht⟩ (0 : Fin 2) * 256 ≤ (i 0).val
      ∧ (i 0).val < win0_3.index ⟨(i 0).val / 256, ht⟩ (0 : Fin 2) * 256 + 256
    rw [e0]
    show (i 0).val / 256 * 256 ≤ (i 0).val ∧ (i 0).val < (i 0).val / 256 * 256 + 256
    omega
  | ⟨1, _⟩ =>
    show win0_3.index ⟨(i 0).val / 256, ht⟩ (1 : Fin 2) * 1 ≤ (i 1).val
      ∧ (i 1).val < win0_3.index ⟨(i 0).val / 256, ht⟩ (1 : Fin 2) * 1 + 1
    rw [e1]
    omega

/-- The output array after the run is the row sums. -/
theorem final (c : Dev nD) : (dats m 0 c).arrAt 3 cfg0.N = Cert.PairDist.rowSums (xin m c) :=
  (dats m 0 c).arrAt_eq_of_cover 3 (Cert.PairDist.rowSums (xin m c)) (fun t _ => flushed_eq m c t) cover

end Cert.KernelIdeal.Blocks

end
-- ==== Proof.KernelRun.lean ====
/-
  The kernel program's run, read: its result is the host tail of the row sums.

  After the region the host sums the [8192, 1] column of row sums from a zero start and divides by the literal `2²⁶`.
  Row `g` of the column is `∑ⱼ entry g j`, so the total is the double sum of all entries (the column's second axis has
  one coordinate), and, on real-valued input, each kernel entry is the reference's entry: the result is
  `PairDist.mean`.
-/
import proofs.«100847_j15917148799715_2_alg».proof.Proof.KernelArray
import Idealize.ShloMosaic.Lib.Pipeline.FrameSuffix
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.HostPrefix

variable (m : (ℓ : Loc nD τ sig) → Buf (Elt Ideal) ℓ) (ρ : Dev nD → PrngReg)

/-- The host lines after the region, as one function of the column they read: its total from zero, over `2²⁶`. -/
def tail (a : S8192x1.Idx → EReal) : S_.Idx → EReal :=
  Host.divf (F := Ideal)
    (Host.reduceAdd (F := Ideal) a (constant (F := Ideal) S_ .f32 0x00000000#32) reducesTo_S8192x1_S_d0_1 h_S_)
    (constant (F := Ideal) S_ .f32 0x4C800000#32)

/-- What the lines after the region leave in the result buffer: the tail of the row sums. -/
theorem tail_result (c : Dev nD) :
    (Pipeline.afterTail₀ cfgs (dats m) 0 (V0 m) [hostOps1] c main_v8 : S_.Idx → EReal)
      = tail (Cert.PairDist.rowSums (xin m c)) := by
  unfold Pipeline.afterTail₀
  show StableHlo.after hostOps1 _ (Proc.devRef .tc main_v8) = _
  after_results
  have harr : Pipeline.withArrays (cfgs 0).spec c (V0 m c) (fun w => (dats m 0 c).arrAt w (cfgs 0).N)
      (Proc.devRef .tc main_v6) = Cert.PairDist.rowSums (xin m c) :=
    (Pipeline.withArrays_arr spec0 launch0.win.arr_inj c _ _ 3).trans (Blocks.final m c)
  exact congrArg tail harr

/-- The run: the result buffer at the tail of the row sums, both arguments unchanged. -/
theorem run : θ_run defs (onTc (τ := τ) (main (F := Ideal))) ⟨m, fun _ => 0, ρ⟩ fun r => ∀ c : Dev nD,
      r.2.mem ((c.tc : Thread nD τ).loc main_v8) = tail (Cert.PairDist.rowSums (xin m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans (tail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

/-- On real-valued input the tail of the row sums is the common mean: the column's total is the double sum of the
    entries, and the kernel's entries are the reference's. -/
theorem tail_rowSums (x : Cert.PairDist.Arr) (hx : Cert.PairDist.AllReal x) :
    tail (Cert.PairDist.rowSums x) = Cert.PairDist.mean x := by
  funext i
  unfold tail
  simp only [Host.divf, Host.reduceAdd, Ideal.hostDivf_def, Ideal.hostReduceAdd_def]
  rw [Ideal.hostReduceAdd_total reducesTo_S8192x1_S_d0_1 (fun b => b.elim0)]
  show Ideal.div (Ideal.ofBits .f32 0x00000000#32 + _) (Ideal.ofBits .f32 0x4C800000#32) = _
  rw [Ideal.ofBits_zero_f32, zero_add, sum_idx2]
  unfold Cert.PairDist.mean
  refine congrArg (fun s => Ideal.div s _) (Finset.sum_congr rfl fun a _ => ?_)
  rw [Fin.sum_univ_one]
  unfold Cert.PairDist.rowSums
  exact Finset.sum_congr rfl fun b _ => Cert.PairDist.kernelEntry_eq_refEntry x hx _ b

end Cert.KernelIdeal.Run

end
-- ==== Proof.RefValue.lean ====
/-
  The reference's result is the common function `PairDist.mean`.

  Read one operation at a time, the reference's matrix entry at `(a, b)` is
  `exp (-(max ((‖a‖² + ‖b‖²) - 2 · ∑ₖ x a k · x b k) 0))`: the two broadcasts of the norms vector pick rows `a` and `b`,
  the product with the transpose contracts the feature axis of both copies of `x`, and the zero starts of the sums
  vanish. The result is the sum of all entries, a double sum over rows and columns, divided by `2²⁶`.
-/
import proofs.«100847_j15917148799715_2_alg».proof.Proof.Gen.ReferenceIdeal.Read
import proofs.«100847_j15917148799715_2_alg».proof.Proof.Spec
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read

/-- The reference's matrix entry at `(a, b)`. -/
theorem entry_eq (x : Cert.PairDist.Arr) (a b : Fin 8192) :
    val_main_v15 (F := Ideal) x (ix2 a b) = Cert.PairDist.refEntry x a b := by
  have e1 : ∀ k, idx_main_v1 (idx_main_v2 (idx_main_v4 (ix2 a b))) k = ix2 a k := fun k =>
    funext fun d => Fin.ext (by match d with | ⟨0, _⟩ => rfl | ⟨1, _⟩ => rfl)
  have e2 : ∀ k, idx_main_v1 (idx_main_v3 (idx_main_v5 (ix2 a b))) k = ix2 b k := fun k =>
    funext fun d => Fin.ext (by match d with | ⟨0, _⟩ => rfl | ⟨1, _⟩ => rfl)
  have e3 : ∀ k, lidx_main_v8 (ix2 a b) k = ix2 a k := fun k =>
    funext fun d => Fin.ext (by match d with | ⟨0, _⟩ => rfl | ⟨1, _⟩ => rfl)
  have e4 : ∀ k, idx_main_v7 (ridx_main_v8 (ix2 a b) k) = ix2 b k := fun k =>
    funext fun d => Fin.ext (by match d with | ⟨0, _⟩ => rfl | ⟨1, _⟩ => rfl)
  rw [val_main_v15_apply, val_main_v14_apply, val_main_v13_apply, val_main_v12_apply, val_main_cst_1_apply,
    val_main_v11_apply, val_main_v6_apply, val_main_v4_apply, val_main_v2_apply, val_main_v1_apply,
    val_main_v5_apply, val_main_v3_apply, val_main_v1_apply, val_main_v10_apply, val_main_v9_apply,
    val_main_cst_0_apply, val_main_v8_apply, val_main_cst_apply]
  simp only [val_main_v0_apply, val_main_v7_apply, e1, e2, e3, e4, Ideal.hostUnary_exp_def, Ideal.hostNegf_def,
    Ideal.negf_def, Ideal.maximumf_def, Ideal.subf_def, Ideal.addf_def, Ideal.mulf_def, Ideal.ofBits_def,
    Ideal.ofBits_zero_f32, zero_add]
  rfl

/-- The reference's result. -/
theorem result_eq (x : Cert.PairDist.Arr) : val_main_v17 (F := Ideal) x = Cert.PairDist.mean x := by
  funext i
  rw [val_main_v17_apply, val_main_v16_apply, val_main_cst_3_apply, val_main_cst_2_apply]
  simp only [Ideal.hostDivf_def, Ideal.ofBits_def, Ideal.ofBits_zero_f32, zero_add]
  unfold Cert.PairDist.mean
  rw [sum_idx2]
  exact congrArg (fun s => Ideal.div s _)
    (Finset.sum_congr rfl fun a _ => Finset.sum_congr rfl fun b _ => entry_eq x a b)

end Cert.ReferenceIdeal.RefValue

end
-- ==== Proof.Finite.lean ====
/-
  Finiteness of the input, read out of the precondition.

  The precondition says that, for each input array, every element's absolute value compares below the pattern of
  `+∞` — a reduction by `and` of those comparisons, from `true`, that came out `true`. So every comparison is
  `true`; an extended real whose absolute value `max a (-a)` lies below `⊤` is neither infinity, hence a real number.
-/
import proofs.«100847_j15917148799715_2_alg».proof.Pre_finite_inputs
import proofs.«100847_j15917148799715_2_alg».proof.Proof.Gen.Pre_finite_inputs
import proofs.«100847_j15917148799715_2_alg».proof.Proof.Spec
import Idealize.ShloMosaic.Lib.ReduceAll
import Idealize.ShloMosaic.Lib.ValueIdx
import Idealize.ShloMosaic.PureOps.Ideal.Laws

noncomputable section

open Idealize.ShloMosaic Idealize.ShloMosaic.ValueIdx

namespace Cert.Finite

instance : Subsingleton Cert.Pre_finite_inputs.S_.Idx := ⟨fun a b => funext fun d => d.elim0⟩

/-- The pattern `0x7F800000` is `+∞`. -/
theorem ofBits_inf : Ideal.ofBits .f32 0x7F800000#32 = (⊤ : EReal) := by simp [Ideal.ofBits, Ideal.ieee]

/-- An extended real whose absolute value is below `⊤` is a real number. -/
theorem real_of_abs_lt_top (x : EReal) (h : max x (-x) < ⊤) : ∃ r : ℝ, x = (r : EReal) := by
  induction x using EReal.rec with
  | bot => simp at h
  | top => simp at h
  | coe r => exact ⟨r, rfl⟩

/-- Under the precondition every entry of the first input is a real number. -/
theorem allReal_of_pre (x : FVec Ideal Cert.Pre_finite_inputs.S8192x128 .f32) (w : FVec Ideal Cert.Pre_finite_inputs.S64x128 .f32)
    (h : Cert.Pre_finite_inputs.fn (F := Ideal) x w = fun _ => 1#1) : Cert.PairDist.AllReal x := by
  intro i
  have h0 := congrFun h ix0
  dsimp only [Cert.Pre_finite_inputs.fn] at h0
  have h1 := (IntOp.andi_eq_one.1 h0).1
  have h2 := Host.reduce_andi_all _ _ _ _ _ h1 i
  have h3 : Ideal.cmp .olt (max (x i) (-(x i))) (Ideal.ofBits .f32 0x7F800000#32) = 1#1 := h2
  rw [ofBits_inf] at h3
  refine real_of_abs_lt_top (x i) ?_
  by_contra hn
  simp [Ideal.cmp, hn] at h3

end Cert.Finite

end
-- ==== Proof.lean ====
/-
  Mean of `exp (-(max dᵢⱼ 0))` over all pairs of rows of `x : [8192, 128]`, `dᵢⱼ` the squared distance of rows `i`, `j`
  by the Gram identity `‖i‖² + ‖j‖² - 2 ⟨i, j⟩` — a tiled kernel against the plain array formula.

  The kernel keeps `x`, the row of squared norms and the array `x · (-2)` resident, and at each of 32 grid points takes
  its own 256 rows, forms `(‖i‖² + ‖j‖²) + ∑ₖ x i k · (x j k · (-2))` for all 8192 columns `j` by one matrix product,
  clamps at zero, exponentiates the negation and stores the 256 row sums; the host then sums the [8192, 1] column and
  divides by `2²⁶`. The reference forms `(‖i‖² + ‖j‖²) - 2 · ∑ₖ x i k · x j k` for the whole [8192, 8192] matrix, and sums
  and divides once.

  On the extended reals the two agree where every entry of `x` is a real number — the precondition — because then
  moving the factor `-2` out of the inner sum is distributivity over reals (`GramLaw`); the rest is the same
  function of equal distances (`0 - m = -m`), and a sum of row sums is the sum over all pairs (`Spec`, `KernelRun`).
  Rounding the matrix product's operands to a narrower format is the identity at this instance.

  The three frames: the two kernel programs' are the generated frame runs; the reference's is its generated run with
  the result dropped. The idealization rewrote nothing, so `preserves` is trivial.
-/
import proofs.«100847_j15917148799715_2_alg».proof.Defs
import proofs.«100847_j15917148799715_2_alg».proof.Proof.Gen.Kernel
import proofs.«100847_j15917148799715_2_alg».proof.Proof.Gen.Kernel.Skeleton
import proofs.«100847_j15917148799715_2_alg».proof.Proof.Gen.Kernel.Launch
import proofs.«100847_j15917148799715_2_alg».proof.Proof.Gen.Kernel.Points
import proofs.«100847_j15917148799715_2_alg».proof.Proof.Gen.Kernel.Frame
import proofs.«100847_j15917148799715_2_alg».proof.Proof.Gen.KernelIdeal
import proofs.«100847_j15917148799715_2_alg».proof.Proof.Gen.KernelIdeal.Skeleton
import proofs.«100847_j15917148799715_2_alg».proof.Proof.Gen.KernelIdeal.Launch
import proofs.«100847_j15917148799715_2_alg».proof.Proof.Gen.KernelIdeal.Points
import proofs.«100847_j15917148799715_2_alg».proof.Proof.Gen.KernelIdeal.Frame
import proofs.«100847_j15917148799715_2_alg».proof.Proof.Gen.ReferenceIdeal
import proofs.«100847_j15917148799715_2_alg».proof.Proof.Gen.Pre_finite_inputs
import proofs.«100847_j15917148799715_2_alg».proof.Proof.Gen.ReferenceIdeal.Run
import proofs.«100847_j15917148799715_2_alg».proof.Proof.Gen.ReferenceIdeal.Read
import proofs.«100847_j15917148799715_2_alg».proof.Proof.KernelRun
import proofs.«100847_j15917148799715_2_alg».proof.Proof.RefValue
import proofs.«100847_j15917148799715_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the mean over all pairs at their result: the kernel's run leaves the host tail of its row
    sums, which is that mean on real-valued input; the reference's run leaves its composed term, read one operation at a
    time; and the arguments agree. -/
theorem algebraic : Cert.algebraic_KernelIdeal_ReferenceIdeal := by
  intro m ρ m' ρ' hpre hagree
  refine ⟨fun c => Cert.PairDist.mean (Cert.KernelIdeal.HostPrefix.xin m c), ?_, ?_⟩
  · refine (θ_run Cert.KernelIdeal.defs _ _).mono (fun _ h c => ⟨(h c).1.trans ?_, (h c).2⟩)
      (Cert.KernelIdeal.Run.run m ρ)
    exact Cert.KernelIdeal.Run.tail_rowSums _ (Cert.Finite.allReal_of_pre _ _ (hpre c))
  · refine (θ_run Cert.ReferenceIdeal.defs _ _).mono (fun _ h c => ⟨?_, (h c).2⟩)
      (Cert.ReferenceIdeal.Value.run (F := Ideal) m' ρ')
    rw [(h c).1, Cert.ReferenceIdeal.Read.val_main_v17_eq, Cert.ReferenceIdeal.RefValue.result_eq, (hagree c).1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
